-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x128 .f32) (main_arg3 : FVec F S64 .f32) (main_arg4 : FVec F S64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩
abbrev S64x64 : Shape := ⟨2, ![64, 64]⟩
abbrev S10000 : Shape := ⟨1, ![10000]⟩
abbrev S10000x1 : Shape := ⟨2, ![10000, 1]⟩

abbrev nBuf : Space → Nat
  | .hbm => 39
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x128, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  slices_S64x128_o0_0_S64x64 : S64x128.Slices ![0, 0] S64x64
  slices_S64x128_o0_64_S64x64 : S64x128.Slices ![0, 64] S64x64
  bitsLt_bf16_f32 : FTy.bits .bf16 < FTy.bits .f32
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S128x64 : Shape := ⟨2, ![128, 64]⟩
abbrev S1x64 : Shape := ⟨2, ![1, 64]⟩

abbrev nBuf : Space → Nat
  | .hbm => 88
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S100000x128, .f32⟩
  | .hbm, ⟨36, _⟩ => ⟨S128x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S_, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000, .f32⟩
  | .hbm, ⟨46, _⟩ => ⟨S100000x1, .f32⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S_, .i32⟩
  | .hbm, ⟨51, _⟩ => ⟨S_, .f32⟩
  | .hbm, ⟨52, _⟩ => ⟨S100000, .f32⟩
  | .hbm, ⟨53, _⟩ => ⟨S100000x1, .f32⟩
  | .hbm, ⟨54, _⟩ => ⟨S_, .f32⟩
  | .hbm, ⟨55, _⟩ => ⟨S100000x1, .f32⟩
  | .hbm, ⟨56, _⟩ => ⟨S100000x1, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S100000, .f32⟩
  | .hbm, ⟨65, _⟩ => ⟨S100000x1, .f32⟩
  | .hbm, ⟨66, _⟩ => ⟨S100000x1, .f32⟩
  | .hbm, ⟨67, _⟩ => ⟨S100000x1, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S100000x1, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x1, .f32⟩
  | .hbm, ⟨78, _⟩ => ⟨S100000x1, .f32⟩
  | .hbm, ⟨79, _⟩ => ⟨S100000x1, .f32⟩
  | .hbm, ⟨80, _⟩ => ⟨S100000x64, .f32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_v0 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_cst_3 : Ref sig .tc := ⟨.hbm, 68, rfl⟩
abbrev main_call1_v13 : Ref sig .tc := ⟨.hbm, 69, rfl⟩
abbrev main_call1_cst_4 : Ref sig .tc := ⟨.hbm, 70, rfl⟩
abbrev main_call1_call0_v0 : Ref sig .tc := ⟨.hbm, 71, rfl⟩
abbrev main_call1_call0_v1 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_7 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  One output row of the layer, on the extended reals.

  A node's output row depends on that node's own feature row `xr` and on its aggregated neighbour row `ar` only:
  the pre-activation at column `c` is `∑ k, xr k * W (c, k) + ∑ k, ar k * W (c, 64 + k) + b c` (the weight's first
  64 columns multiply the node's features, its last 64 the aggregate), clamped below at zero; the row is then
  centred at its mean over the 64 columns, scaled by the reciprocal square root of the mean of the centred squares
  plus a small constant, multiplied by `g` and shifted by `β`, column by column.

  The three float words are kept as the extended reals they denote (zero, sixty-four, the small constant): both
  programs spell them with the same words, so they are never evaluated here.
-/
import Idealize.ShloMosaic.PureOps.Ideal
import Idealize.ShloMosaic.Lib.ValueIdx

noncomputable section

namespace Cert.Spec

open Idealize.ShloMosaic Idealize.ShloMosaic.ValueIdx

/-- Column `k` of the weight's first half. -/
abbrev lo (k : Fin 64) : Fin 128 := ⟨k.val, by omega⟩
/-- Column `k` of the weight's second half. -/
abbrev hi (k : Fin 64) : Fin 128 := ⟨64 + k.val, by omega⟩

/-- The clamped pre-activation of one row at column `c`. -/
def act (xr ar : Fin 64 → EReal) (W : (⟨2, ![64, 128]⟩ : Shape).Idx → EReal) (b : Fin 64 → EReal) (c : Fin 64) : EReal :=
  max (((∑ k : Fin 64, xr k * W (ix2 c (lo k))) + (∑ k : Fin 64, ar k * W (ix2 c (hi k)))) + b c)
    (Ideal.ofBits .f32 0x00000000#32)

/-- The mean of a row of 64 entries: their sum divided by sixty-four. -/
def mean (h : Fin 64 → EReal) : EReal := Ideal.div (∑ c : Fin 64, h c) (Ideal.ofBits .f32 0x42800000#32)

/-- A row centred at its mean. -/
def cen (h : Fin 64 → EReal) (c : Fin 64) : EReal := h c - mean h

/-- The normalized row: centred, scaled by the reciprocal root of the centred squares' mean plus the constant. -/
def normed (h : Fin 64 → EReal) (c : Fin 64) : EReal :=
  cen h c * Ideal.rsqrt (mean (fun d => cen h d * cen h d) + Ideal.ofBits .f32 0x3727C5AC#32)

/-- One output row at column `q`. -/
def rowOut (xr ar : Fin 64 → EReal) (W : (⟨2, ![64, 128]⟩ : Shape).Idx → EReal) (b g β : Fin 64 → EReal) (q : Fin 64) : EReal :=
  normed (act xr ar W b) q * g q + β q

/-- A sum over 128 terms is the sum of its first 64 plus the sum of its last 64 (in any commutative monoid:
    no finiteness is involved). -/
theorem sum_split {M : Type*} [AddCommMonoid M] (f : Fin 128 → M) :
    ∑ k : Fin 128, f k = (∑ k : Fin 64, f (lo k)) + ∑ k : Fin 64, f (hi k) := by
  have h := Fin.sum_univ_add (a := 64) (b := 64) (fun k : Fin (64 + 64) => f ⟨k.val, by omega⟩)
  refine (show ∑ k : Fin 128, f k = ∑ k : Fin (64 + 64), f ⟨k.val, by omega⟩ from rfl).trans (h.trans ?_)
  rfl

end Cert.Spec

end
-- ==== Proof.SpecWhole.lean ====
/-
  The layer on whole arrays: the result at `(r, q)` is the row function of row `r` of the node features and of the
  aggregate, of the weight and of the three vectors, at column `q`. Both programs' results are stated with this one
  term.
-/
import proofs.«180811_j2954937499913_1_alg».proof.Proof.Spec

noncomputable section

namespace Cert.Spec

open Idealize.ShloMosaic Idealize.ShloMosaic.ValueIdx

/-- The whole result array from the whole argument arrays. -/
def whole (x a : (⟨2, ![100000, 64]⟩ : Shape).Idx → EReal) (W : (⟨2, ![64, 128]⟩ : Shape).Idx → EReal)
    (b g β : (⟨1, ![64]⟩ : Shape).Idx → EReal) : (⟨2, ![100000, 64]⟩ : Shape).Idx → EReal :=
  fun i => rowOut (fun k => x (ix2 (⟨(i 0).val, idx2_lt0 i⟩ : Fin 100000) k))
    (fun k => a (ix2 (⟨(i 0).val, idx2_lt0 i⟩ : Fin 100000) k)) W
    (fun c => b (ix1 c)) (fun c => g (ix1 c)) (fun c => β (ix1 c)) (⟨(i 1).val, idx2_lt1 i⟩ : Fin 64)

/-- At explicit coordinates. -/
theorem whole_ix2 (x a : (⟨2, ![100000, 64]⟩ : Shape).Idx → EReal) (W : (⟨2, ![64, 128]⟩ : Shape).Idx → EReal)
    (b g β : (⟨1, ![64]⟩ : Shape).Idx → EReal) (r : Fin 100000) (q : Fin 64) :
    whole x a W b g β (ix2 r q)
      = rowOut (fun k => x (ix2 r k)) (fun k => a (ix2 r k)) W (fun c => b (ix1 c)) (fun c => g (ix1 c)) (fun c => β (ix1 c)) q :=
  rfl

end Cert.Spec

end
-- ==== Proof.KernelValue.lean ====
/-
  From the blocks the kernel writes back to the whole result array, over arbitrary array contents.

  The grid has ten points; point `t` stages rows `10000 t … 10000 t + 9999` of the node features and of the
  aggregate, the whole weight and the three row vectors, and writes back rows `10000 t …` of the result. Because an
  output row depends on the same row of the two staged arrays only, block `t` of the result is block `t` of ONE
  whole-array function (`layer`), and the ten blocks cover the array: so the array after the run is `layer` of the
  arrays the region finds. What the body leaves in a block, index by index, is taken as a hypothesis (`PayFact`): it
  is proved on its own, over variable blocks.
-/
import proofs.«180811_j2954937499913_1_alg».proof.Proof.Spec
import proofs.«180811_j2954937499913_1_alg».proof.Proof.Gen.KernelIdeal.Value
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

/-- The row function depends on its arguments through their values only. -/
theorem rowOut_congr {xr xr' ar ar' : Fin 64 → EReal} {W W' : (⟨2, ![64, 128]⟩ : Shape).Idx → EReal}
    {b b' g g' β β' : Fin 64 → EReal} {q q' : Fin 64}
    (hx : ∀ k, xr k = xr' k) (ha : ∀ k, ar k = ar' k) (hW : ∀ (c : Fin 64) (k : Fin 128), W (ix2 c k) = W' (ix2 c k))
    (hb : ∀ c, b c = b' c) (hg : ∀ c, g c = g' c) (hβ : ∀ c, β c = β' c) (hq : q.val = q'.val) :
    Cert.Spec.rowOut xr ar W b g β q = Cert.Spec.rowOut xr' ar' W' b' g' β' q' := by
  obtain rfl : xr = xr' := funext hx
  obtain rfl : ar = ar' := funext ha
  obtain rfl : W = W' := funext fun j => by rw [eq_ix2 j]; exact hW _ _
  obtain rfl : b = b' := funext hb
  obtain rfl : g = g' := funext hg
  obtain rfl : β = β' := funext hβ
  obtain rfl : q = q' := Fin.ext hq
  rfl

/-- The layer on whole arrays: row `i 0` of the result from row `i 0` of the features `X` and of the aggregate `A`,
    the row vectors given as one-row matrices. -/
def layer (X A : S100000x64.Idx → Elt Ideal .f32) (W : S64x128.Idx → Elt Ideal .f32)
    (B G Bt : S1x64.Idx → Elt Ideal .f32) : S100000x64.Idx → Elt Ideal .f32 :=
  fun i => Cert.Spec.rowOut (fun k => X (ix2 (⟨(i 0).val, idx2_lt0 i⟩ : Fin 100000) k))
    (fun k => A (ix2 (⟨(i 0).val, idx2_lt0 i⟩ : Fin 100000) k)) W
    (fun c => B (ix2 (0 : Fin 1) c)) (fun c => G (ix2 (0 : Fin 1) c)) (fun c => Bt (ix2 (0 : Fin 1) c))
    (⟨(i 1).val, idx2_lt1 i⟩ : Fin 64)

/-- What the body leaves in the output block, index by index: the row function of the loaded blocks' rows. -/
abbrev PayFact : Prop :=
  ∀ (P0 P1 : Vec Ideal S10000x64 .f32) (P2 : Vec Ideal S64x128 .f32) (P3 P4 P5 : Vec Ideal S1x64 .f32)
    (p : Fin 10000) (q : Fin 64),
    Cert.KernelIdeal.Value.E6 (F := Ideal) P0 P1 P2 P3 P4 P5 (ix2 p q)
      = Cert.Spec.rowOut (fun k => P0 (ix2 p k)) (fun k => P1 (ix2 p k)) P2 (fun c => P3 (ix2 (0 : Fin 1) c))
          (fun c => P4 (ix2 (0 : Fin 1) c)) (fun c => P5 (ix2 (0 : Fin 1) c)) q

theorem hz : (![0, 0] : Fin 2 → Nat) = fun _ => 0 := funext fun a => by fin_cases a <;> rfl

/-- The printed index maps over the ten grid points: the two row-blocked inputs and the output move down the rows
    with the point, the weight and the row vectors stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the feature block at point `t` is row `10000 t + p` of the array. -/
theorem read0 (X : S100000x64.Idx → Elt Ideal .f32) (t : Fin cfg0.N) (p : Fin 10000) (k : Fin 64) (r : Fin 100000)
    (hr : r.val = 10000 * t.val + p.val) :
    ((cfg0.win 0).blk t).view.read (Elt Ideal) X (ix2 p k) = X (ix2 r k) := by
  obtain ⟨e0, e1, -⟩ := idx_facts t
  rw [View.read_apply]
  refine congrArg X ?_
  funext a
  apply Fin.ext
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- Row `p` of the aggregate block at point `t` is row `10000 t + p` of the array. -/
theorem read1 (A : S100000x64.Idx → Elt Ideal .f32) (t : Fin cfg0.N) (p : Fin 10000) (k : Fin 64) (r : Fin 100000)
    (hr : r.val = 10000 * t.val + p.val) :
    ((cfg0.win 1).blk t).view.read (Elt Ideal) A (ix2 p k) = A (ix2 r k) := by
  obtain ⟨-, -, e0, e1, -⟩ := idx_facts t
  rw [View.read_apply]
  refine congrArg A ?_
  funext a
  apply Fin.ext
  match a with
  | ⟨0, _⟩ => show win0_1.index t (0 : Fin 2) * 10000 + 1 * p.val = r.val; rw [e0, hr]; omega
  | ⟨1, _⟩ => show win0_1.index t (1 : Fin 2) * 64 + 1 * k.val = k.val; rw [e1]; omega

/-- The weight's block is the weight. -/
theorem read2 (W : S64x128.Idx → Elt Ideal .f32) (t : Fin cfg0.N) (c : Fin 64) (k : Fin 128) :
    ((cfg0.win 2).blk t).view.read (Elt Ideal) W (ix2 c k) = W (ix2 c k) := by
  obtain ⟨-, -, -, -, e0, e1, -⟩ := idx_facts t
  rw [View.read_apply]
  refine congrArg W ?_
  funext a
  apply Fin.ext
  match a with
  | ⟨0, _⟩ => show win0_2.index t (0 : Fin 2) * 64 + 1 * c.val = c.val; rw [e0]; omega
  | ⟨1, _⟩ => show win0_2.index t (1 : Fin 2) * 128 + 1 * k.val = k.val; rw [e1]; omega

/-- Each row vector's block is the row vector. -/
theorem read3 (B : S1x64.Idx → Elt Ideal .f32) (t : Fin cfg0.N) (c : Fin 64) :
    ((cfg0.win 3).blk t).view.read (Elt Ideal) B (ix2 (0 : Fin 1) c) = B (ix2 (0 : Fin 1) c) := by
  obtain ⟨-, -, -, -, -, -, e0, e1, -⟩ := idx_facts t
  rw [View.read_apply]
  refine congrArg B ?_
  funext a
  apply Fin.ext
  match a with
  | ⟨0, _⟩ => show win0_3.index t (0 : Fin 2) * 1 + 1 * 0 = 0; rw [e0]
  | ⟨1, _⟩ => show win0_3.index t (1 : Fin 2) * 64 + 1 * c.val = c.val; rw [e1]; omega

theorem read4 (G : S1x64.Idx → Elt Ideal .f32) (t : Fin cfg0.N) (c : Fin 64) :
    ((cfg0.win 4).blk t).view.read (Elt Ideal) G (ix2 (0 : Fin 1) c) = G (ix2 (0 : Fin 1) c) := by
  obtain ⟨-, -, -, -, -, -, -, -, e0, e1, -⟩ := idx_facts t
  rw [View.read_apply]
  refine congrArg G ?_
  funext a
  apply Fin.ext
  match a with
  | ⟨0, _⟩ => show win0_4.index t (0 : Fin 2) * 1 + 1 * 0 = 0; rw [e0]
  | ⟨1, _⟩ => show win0_4.index t (1 : Fin 2) * 64 + 1 * c.val = c.val; rw [e1]; omega

theorem read5 (Bt : S1x64.Idx → Elt Ideal .f32) (t : Fin cfg0.N) (c : Fin 64) :
    ((cfg0.win 5).blk t).view.read (Elt Ideal) Bt (ix2 (0 : Fin 1) c) = Bt (ix2 (0 : Fin 1) c) := by
  obtain ⟨-, -, -, -, -, -, -, -, -, -, e0, e1, -⟩ := idx_facts t
  rw [View.read_apply]
  refine congrArg Bt ?_
  funext a
  apply Fin.ext
  match a with
  | ⟨0, _⟩ => show win0_5.index t (0 : Fin 2) * 1 + 1 * 0 = 0; rw [e0]
  | ⟨1, _⟩ => show win0_5.index t (1 : Fin 2) * 64 + 1 * c.val = c.val; rw [e1]; omega

/-- WHAT POINT `t` WRITES BACK, for arbitrary array contents: the body's result of the seven windows' blocks is
    block `t` of `layer` of the arrays. -/
theorem block_eq (hE : PayFact) (X A : S100000x64.Idx → Elt Ideal .f32) (W : S64x128.Idx → Elt Ideal .f32)
    (B G Bt : S1x64.Idx → Elt Ideal .f32) (t : Fin cfg0.N) :
    (cfg0.win 6).cut (grid0.coords t)
        (out0_6 (((cfg0.win 0).blk t).view.read (Elt Ideal) X) (((cfg0.win 1).blk t).view.read (Elt Ideal) A)
          (((cfg0.win 2).blk t).view.read (Elt Ideal) W) (((cfg0.win 3).blk t).view.read (Elt Ideal) B)
          (((cfg0.win 4).blk t).view.read (Elt Ideal) G) (((cfg0.win 5).blk t).view.read (Elt Ideal) Bt))
      = ((cfg0.win 6).blk t).view.read (Elt Ideal) (layer X A W B G Bt) := by
  obtain ⟨-, -, -, -, -, -, -, -, -, -, -, -, e0, e1⟩ := idx_facts t
  unfold out0_6
  simp only [View.ld_unit_zero (S := S10000x64) hz, View.ld_unit_zero (S := S64x128) hz, View.ld_unit_zero (S := S1x64) hz]
  funext j
  obtain ⟨p, q, rfl⟩ : ∃ (p : Fin 10000) (q : Fin 64), j = ix2 p q := ⟨j 0, j 1, eq_ix2 j⟩
  show View.canon [⟨r0_0, k0_pay1 (k0_pay2 (((cfg0.win 0).blk t).view.read (Elt Ideal) X) (((cfg0.win 1).blk t).view.read (Elt Ideal) A)
          (((cfg0.win 2).blk t).view.read (Elt Ideal) W) (((cfg0.win 3).blk t).view.read (Elt Ideal) B))
          (k0_pay3 (((cfg0.win 4).blk t).view.read (Elt Ideal) G)) (((cfg0.win 5).blk t).view.read (Elt Ideal) Bt)⟩] (ix2 p q)
      = layer X A W B G Bt (((cfg0.win 6).blk t).view.emb (ix2 p q))
  refine (Cert.KernelIdeal.Value.canon6_eq _ _ _ _ _ _ (ix2 p q)).trans ?_
  refine (hE _ _ _ _ _ _ p q).trans ?_
  have hN : t.val < 10 := by have := t.isLt; have hN : cfg0.N = 10 := N_0; omega
  have h0 : ((((cfg0.win 6).blk t).view.emb (ix2 p q)) (0 : Fin 2)).val = 10000 * t.val + p.val := by
    show win0_6.index t (0 : Fin 2) * 10000 + 1 * p.val = _; rw [e0]; omega
  have h1 : ((((cfg0.win 6).blk t).view.emb (ix2 p q)) (1 : Fin 2)).val = q.val := by
    show win0_6.index t (1 : Fin 2) * 64 + 1 * q.val = _; rw [e1]; omega
  unfold layer
  exact rowOut_congr (fun k => read0 X t p k _ h0) (fun k => read1 A t p k _ h0) (fun c k => read2 W t c k)
    (fun c => read3 B t c) (fun c => read4 G t c) (fun c => read5 Bt t c) h1.symm

/-- An index of the result array is in point `t`'s block iff its coordinates are in the block's ranges. -/
theorem mem_blk (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v26).slice (win0_6.rect t)).set ↔ _
  rw [View.set_slice_whole, Rect.mem_set_unit]
  exact Iff.rfl

/-- The ten blocks cover the result array: row `r` lies in the block of point `r / 10000`. -/
theorem cover (i : S100000x64.Idx) :
    ∃ t : Fin cfg0.N, (cfg0.win 6).flush t = true ∧ i ∈ ((cfg0.win 6).blk t).view.set := by
  have hi0 : (i 0).val < 100000 := idx2_lt0 i
  have hi1 : (i 1).val < 64 := idx2_lt1 i
  have hN : cfg0.N = 10 := N_0
  refine ⟨⟨(i 0).val / 10000, by rw [hN]; omega⟩, flush0_6 _, ?_⟩
  rw [mem_blk]
  obtain ⟨-, -, -, -, -, -, -, -, -, -, -, -, e0, e1⟩ := idx_facts ⟨(i 0).val / 10000, by rw [hN]; omega⟩
  intro a
  match a with
  | ⟨0, _⟩ =>
    show win0_6.index _ (0 : Fin 2) * 10000 ≤ (i 0).val ∧ (i 0).val < win0_6.index _ (0 : Fin 2) * 10000 + 10000
    rw [e0]; show (i 0).val / 10000 * 10000 ≤ (i 0).val ∧ (i 0).val < (i 0).val / 10000 * 10000 + 10000; omega
  | ⟨1, _⟩ =>
    show win0_6.index _ (1 : Fin 2) * 64 ≤ (i 1).val ∧ (i 1).val < win0_6.index _ (1 : Fin 2) * 64 + 64
    rw [e1]; omega

variable (m : (ℓ : Loc nD τ sig) → Buf (Elt Ideal) ℓ)

/-- THE RESULT ARRAY after the run: `layer` of the arrays the region finds, for any proof data whose write-backs are
    the body's results of the blocks. -/
theorem final_of (hE : PayFact) (c : Dev nD) :
    (dats m 0 c).arrAt 6 cfg0.N
      = layer (V m c (Pipeline.arrRef spec0 0)) (V m c (Pipeline.arrRef spec0 1)) (V m c (Pipeline.arrRef spec0 2))
          (V m c (Pipeline.arrRef spec0 3)) (V m c (Pipeline.arrRef spec0 4)) (V m c (Pipeline.arrRef spec0 5)) :=
  (dats m 0 c).arrAt_eq_of_cover 6 _ (fun t _ => by
    rw [Cert.KernelIdeal.Value.flushed6]
    unfold iblk
    exact block_eq hE _ _ _ _ _ _ t) cover

end Cert.KernelIdeal.Whole

end
-- ==== Proof.RefTerm.lean ====
/-
  The reference's host program as two pure terms of its argument arrays.

  `aggOf x e` is the mean aggregation: the rows of `x` gathered at the edges' source nodes (a negative index
  wrapped once by the node count), summed into the edges' destination nodes, and divided row by row by the
  destination's edge count, at least one. `tailOf x a W b g β` is what follows it: the concatenation of `x` and the
  aggregate `a` against the transposed weight, the bias, the clamp at zero, and the normalization of each row
  (`actOf`, `meanOf`, `varOf`, `lnOf`: the same operations, in the order the program applies them).
-/
import proofs.«180811_j2954937499913_1_alg».proof.Proof.Gen.ReferenceIdeal

noncomputable section

namespace Cert.ReferenceIdeal.RefTerm

open Cert.ReferenceIdeal Cert.ReferenceIdeal.Gen Idealize.ShloMosaic Idealize.SL.Sem

variable {F : FTy → Type} [FloatOps F]

/-- The destination node of each edge: row 0 of the edge list. -/
def dstOf (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- The source node of each edge: row 1 of the edge list. -/
def srcOf (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The mean aggregation of the source rows over each destination's edges. -/
def aggOf (x : (⟨S100000x64, .f32⟩ : BufTy).Contents (Elt F)) (e : (⟨S2x1600000, .i32⟩ : BufTy).Contents (Elt F)) :
    (⟨S100000x64, .f32⟩ : BufTy).Contents (Elt F) :=
  Host.divf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 (dstOf (F := F) e))
      (Host.gather gather_S100000x64_S1600000x1_S1600000x64_1_0_n_n_0_1_164 x
        (broadcastInDim S1600000x1 ![0] bcast_S1600000_S1600000x1_0
          (select (cmpi .slt (srcOf (F := F) e) (broadcastInDim S1600000 ![] bcast_S_S1600000 (constantI S_ 32 0#32)))
            (addi (srcOf (F := F) e) (broadcastInDim S1600000 ![] bcast_S_S1600000 (constantI S_ 32 100000#32)))
            (srcOf (F := F) e)))))
    (broadcastInDim S100000x64 ![0, 1] bcast_S100000x1_S100000x64_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 (dstOf (F := F) e))
            (broadcastInDim S1600000 ![] bcast_S_S1600000 (constant S_ .f32 0x3F800000#32)))
          (broadcastInDim S100000 ![] bcast_S_S100000 (constant S_ .f32 0x3F800000#32)))))

/-- The clamped linear layer: `[x, a]` against the transposed weight, plus the bias, at least zero. -/
def actOf (x a : (⟨S100000x64, .f32⟩ : BufTy).Contents (Elt F)) (W : (⟨S64x128, .f32⟩ : BufTy).Contents (Elt F))
    (b : (⟨S64, .f32⟩ : BufTy).Contents (Elt F)) : (⟨S100000x64, .f32⟩ : BufTy).Contents (Elt F) :=
  maximumf
    (addf
      (Host.dotGeneral dot_S100000x128_S128x64_S100000x64_1_0_0_1_n_n none
        (concatenate S100000x128 1 [⟨S100000x64, x⟩, ⟨S100000x64, a⟩] concatenates_S100000x64_S100000x64_S100000x128_d1)
        (transpose S128x64 [1, 0] W transposes_S64x128_S128x64_1_0))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The row means, kept as a column: the row sums divided by sixty-four. -/
def meanOf (h : (⟨S100000x64, .f32⟩ : BufTy).Contents (Elt F)) : (⟨S100000x1, .f32⟩ : BufTy).Contents (Elt F) :=
  Host.divf
    (broadcastInDim S100000x1 ![0] bcast_S100000_S100000x1_0
      (Host.reduceAdd h (constant S_ .f32 0x00000000#32) reducesTo_S100000x64_S100000_d1 h_S_))
    (broadcastInDim S100000x1 ![] bcast_S_S100000x1 (constant S_ .f32 0x42800000#32))

/-- The divisor of the variance: sixty-four less the count correction, here the integer zero. -/
def cntOf : (⟨S_, .f32⟩ : BufTy).Contents (Elt F) :=
  subf (constant S_ .f32 0x42800000#32) (sitofp (F := F) .f32 (constantI S_ 32 0#32))

/-- The row variances, kept as a column: the sum of the centred squares over the divisor where the divisor is
    positive, a fixed word elsewhere. -/
def varOf (h : (⟨S100000x64, .f32⟩ : BufTy).Contents (Elt F)) : (⟨S100000x1, .f32⟩ : BufTy).Contents (Elt F) :=
  select (broadcastInDim S100000x1 ![] bcast_S_S100000x1 (cmpf .ogt (cntOf (F := F)) (constant S_ .f32 0x00000000#32)))
    (Host.divf
      (broadcastInDim S100000x1 ![0] bcast_S100000_S100000x1_0
        (Host.reduceAdd
          (mulf (subf h (broadcastInDim S100000x64 ![0, 1] bcast_S100000x1_S100000x64_0_1 (meanOf h)))
            (subf h (broadcastInDim S100000x64 ![0, 1] bcast_S100000x1_S100000x64_0_1 (meanOf h))))
          (constant S_ .f32 0x00000000#32) reducesTo_S100000x64_S100000_d1 h_S_))
      (broadcastInDim S100000x1 ![] bcast_S_S100000x1 (cntOf (F := F))))
    (broadcastInDim S100000x1 ![] bcast_S_S100000x1 (id (constant S_ .f32 0x7FC00000#32)))

/-- The normalization of each row, scaled and shifted column by column. -/
def lnOf (h : (⟨S100000x64, .f32⟩ : BufTy).Contents (Elt F)) (g β : (⟨S64, .f32⟩ : BufTy).Contents (Elt F)) :
    (⟨S100000x64, .f32⟩ : BufTy).Contents (Elt F) :=
  addf
    (mulf
      (mulf (subf h (broadcastInDim S100000x64 ![0, 1] bcast_S100000x1_S100000x64_0_1 (meanOf h)))
        (broadcastInDim S100000x64 ![0, 1] bcast_S100000x1_S100000x64_0_1
          (Host.rsqrt (addf (varOf h) (broadcastInDim S100000x1 ![] bcast_S_S100000x1 (constant S_ .f32 0x3727C5AC#32))))))
      (broadcastInDim S100000x64 ![0, 1] bcast_S1x64_S100000x64_0_1 (broadcastInDim S1x64 ![1] bcast_S64_S1x64_1 g)))
    (broadcastInDim S100000x64 ![0, 1] bcast_S1x64_S100000x64_0_1 (broadcastInDim S1x64 ![1] bcast_S64_S1x64_1 β))

/-- Everything after the aggregation. -/
def tailOf (x a : (⟨S100000x64, .f32⟩ : BufTy).Contents (Elt F)) (W : (⟨S64x128, .f32⟩ : BufTy).Contents (Elt F))
    (b g β : (⟨S64, .f32⟩ : BufTy).Contents (Elt F)) : (⟨S100000x64, .f32⟩ : BufTy).Contents (Elt F) :=
  lnOf (actOf x a W b) g β

end Cert.ReferenceIdeal.RefTerm

end
-- ==== Proof.KernelHost.lean ====
/-
  The arrays the kernel's region finds, as functions of the program's arguments.

  The host lines before the region compute the mean aggregation and re-lay the three vectors as one-row matrices.
  The aggregation is, operation for operation, the reference's own (`aggOf`): it is named, never opened. A vector
  re-laid as a `1×64` matrix reads at `(0, q)` the vector at `q`.
-/
import proofs.«180811_j2954937499913_1_alg».proof.Proof.RefTerm
import proofs.«180811_j2954937499913_1_alg».proof.Proof.Gen.KernelIdeal.Frame
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.HostPrefix

open Cert.KernelIdeal Cert.KernelIdeal.Gen

variable (m : (ℓ : Loc nD τ sig) → Buf (Elt Ideal) ℓ)

set_option maxHeartbeats 2000000 in
/-- The aggregate's array, as the region finds it, is the reference's aggregation of the arguments. -/
theorem V_agg (c : Dev nD) :
    (V m c main_v22 : S100000x64.Idx → Elt Ideal .f32)
      = Cert.ReferenceIdeal.RefTerm.aggOf (F := Ideal) (m ((c : Thread nD τ).loc main_arg0)) (m ((c : Thread nD τ).loc main_arg1)) := by
  dsimp only [Gen.V, Gen.hostOps0]
  after_results_simp
  rfl

/-- The bias as a one-row matrix. -/
theorem V_b (c : Dev nD) :
    (V m c main_v23 : S1x64.Idx → Elt Ideal .f32) = shapeCast S1x64 (m ((c : Thread nD τ).loc main_arg3)) shapeCasts_S64_S1x64 := by
  dsimp only [Gen.V, Gen.hostOps0]
  after_results_simp
  rfl

/-- The scale as a one-row matrix. -/
theorem V_g (c : Dev nD) :
    (V m c main_v24 : S1x64.Idx → Elt Ideal .f32) = shapeCast S1x64 (m ((c : Thread nD τ).loc main_arg4)) shapeCasts_S64_S1x64 := by
  dsimp only [Gen.V, Gen.hostOps0]
  after_results_simp
  rfl

/-- The shift as a one-row matrix. -/
theorem V_beta (c : Dev nD) :
    (V m c main_v25 : S1x64.Idx → Elt Ideal .f32) = shapeCast S1x64 (m ((c : Thread nD τ).loc main_arg5)) shapeCasts_S64_S1x64 := by
  dsimp only [Gen.V, Gen.hostOps0]
  after_results_simp
  rfl

theorem V_b_apply (c : Dev nD) (q : Fin 64) :
    (V m c main_v23 : S1x64.Idx → Elt Ideal .f32) (ix2 (0 : Fin 1) q)
      = (m ((c : Thread nD τ).loc main_arg3) : S64.Idx → Elt Ideal .f32) (ix1 q) := by
  rw [V_b]; exact shapeCast_a_1a_apply _ _ 0 q

theorem V_g_apply (c : Dev nD) (q : Fin 64) :
    (V m c main_v24 : S1x64.Idx → Elt Ideal .f32) (ix2 (0 : Fin 1) q)
      = (m ((c : Thread nD τ).loc main_arg4) : S64.Idx → Elt Ideal .f32) (ix1 q) := by
  rw [V_g]; exact shapeCast_a_1a_apply _ _ 0 q

theorem V_beta_apply (c : Dev nD) (q : Fin 64) :
    (V m c main_v25 : S1x64.Idx → Elt Ideal .f32) (ix2 (0 : Fin 1) q)
      = (m ((c : Thread nD τ).loc main_arg5) : S64.Idx → Elt Ideal .f32) (ix1 q) := by
  rw [V_beta]; exact shapeCast_a_1a_apply _ _ 0 q

end Cert.KernelIdeal.HostPrefix

end
-- ==== Proof.KernelRun.lean ====
/-
  The kernel's run, read: its result array is the layer on whole arrays applied to the program's arguments and to
  the reference's aggregation of them.

  The region finds the node features and the weight as launched, the aggregate's array at the reference's own
  aggregation term, and each vector as a one-row matrix; the ten write-backs cover the result array with the blocks of
  one whole-array function (the preceding modules), which row by row is the common row function.
-/
import proofs.«180811_j2954937499913_1_alg».proof.Proof.SpecWhole
import proofs.«180811_j2954937499913_1_alg».proof.Proof.KernelValue
import proofs.«180811_j2954937499913_1_alg».proof.Proof.KernelHost

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- `layer` of the arrays the region finds is the whole-array function of the program's arguments. -/
theorem layer_eq (c : Dev nD) :
    layer (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))
      = Cert.Spec.whole (m ((c : Thread nD τ).loc main_arg0))
          (Cert.ReferenceIdeal.RefTerm.aggOf (F := Ideal) (m ((c : Thread nD τ).loc main_arg0)) (m ((c : Thread nD τ).loc main_arg1)))
          (m ((c : Thread nD τ).loc main_arg2)) (m ((c : Thread nD τ).loc main_arg3))
          (m ((c : Thread nD τ).loc main_arg4)) (m ((c : Thread nD τ).loc main_arg5)) := by
  funext i
  unfold layer Cert.Spec.whole
  refine rowOut_congr (fun k => ?_) (fun k => ?_) (fun c' k => ?_) (fun c' => ?_) (fun c' => ?_) (fun c' => ?_) rfl
  · exact congrFun (V_main_arg0 m c) _
  · exact congrFun (HostPrefix.V_agg m c) _
  · exact congrFun (V_main_arg2 m c) _
  · exact HostPrefix.V_b_apply m c c'
  · exact HostPrefix.V_g_apply m c c'
  · exact HostPrefix.V_beta_apply m c c'

/-- The run: every weakly fair execution terminates with the result array at the whole-array function of the
    arguments, the arguments unchanged. -/
theorem run (hE : PayFact) :
    θ_run defs (onTc (τ := τ) (main (F := Ideal))) ⟨m, fun _ => 0, ρ⟩ fun r => ∀ c : Dev nD,
      r.2.mem ((c : Thread nD τ).loc main_v26)
        = Cert.Spec.whole (m ((c : Thread nD τ).loc main_arg0))
            (Cert.ReferenceIdeal.RefTerm.aggOf (F := Ideal) (m ((c : Thread nD τ).loc main_arg0)) (m ((c : Thread nD τ).loc main_arg1)))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final_of m hE c).trans (layer_eq m c)), (h c).2⟩)
    (Cert.KernelIdeal.Value.run_blocks m ρ)

end Cert.KernelIdeal.Whole

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.Payload.lean ====
/-
  The block of rows the kernel's body stores, read at an index on the extended reals.

  Row `p` of the stored block depends only on row `p` of the node features and of the aggregate. The body slices
  the weight into its first and its last 64 columns and transposes each half, so the first product's entry
  `(p, c)` is `∑ k, x (p, k) * W (c, k)` and the second's is `∑ k, a (p, k) * W (c, 64 + k)`; their sum plus the
  bias row, clamped below at zero, is the pre-activation. Each row is then centred at its mean over the 64
  columns (a lane sum kept as a column, divided by sixty-four, broadcast back), and scaled by the reciprocal
  square root of the mean of the centred squares plus the small constant; the stored entry multiplies by the
  scale row and adds the shift row. Changes of float format and casts to the same shape are the identity here,
  and no finiteness is used: the two sides are the same expression, entry by entry.
-/
import proofs.«180811_j2954937499913_1_alg».proof.Proof.Spec
import proofs.«180811_j2954937499913_1_alg».proof.Proof.Gen.KernelIdeal.Value
import proofs.«180811_j2954937499913_1_alg».proof.Proof.LibPlainDot
import proofs.«180811_j2954937499913_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-- The weight's first 64 columns, transposed. -/
def wLo (W : FVec Ideal S64x128 .f32) : FVec Ideal S64x64 .bf16 :=
  transpose S64x64 [1, 0] (truncf .bf16 (extractStridedSlice S64x64 ![0, 0] W slices_S64x128_o0_0_S64x64) bitsLt_bf16_f32)
    transposes_S64x64_p1_0_S64x64

/-- The weight's last 64 columns, transposed. -/
def wHi (W : FVec Ideal S64x128 .f32) : FVec Ideal S64x64 .bf16 :=
  transpose S64x64 [1, 0] (truncf .bf16 (extractStridedSlice S64x64 ![0, 64] W slices_S64x128_o0_64_S64x64) bitsLt_bf16_f32)
    transposes_S64x64_p1_0_S64x64

/-- Entry `(k, c)` of the transposed first half is the weight at row `c`, column `k`. -/
theorem wLo_apply (W : FVec Ideal S64x128 .f32) (k c : Fin 64) : wLo W (ix2 k c) = W (ix2 c (Cert.Spec.lo k)) := by
  unfold wLo
  refine (transpose_ix2_apply _ transposes_S64x64_p1_0_S64x64 k c).trans ?_
  exact extractStridedSlice_apply _ W slices_S64x128_o0_0_S64x64 (ix2 c k) (ix2 c (Cert.Spec.lo k)) fun a =>
    match a with
    | ⟨0, _⟩ => by show c.val = 0 + c.val; omega
    | ⟨1, _⟩ => by show k.val = 0 + k.val; omega

/-- Entry `(k, c)` of the transposed second half is the weight at row `c`, column `64 + k`. -/
theorem wHi_apply (W : FVec Ideal S64x128 .f32) (k c : Fin 64) : wHi W (ix2 k c) = W (ix2 c (Cert.Spec.hi k)) := by
  unfold wHi
  refine (transpose_ix2_apply _ transposes_S64x64_p1_0_S64x64 k c).trans ?_
  exact extractStridedSlice_apply _ W slices_S64x128_o0_64_S64x64 (ix2 c k) (ix2 c (Cert.Spec.hi k)) fun a =>
    match a with
    | ⟨0, _⟩ => by show c.val = 0 + c.val; omega
    | ⟨1, _⟩ => by show 64 + k.val = 64 + k.val; omega

/-- A product of a 10000×64 block with a 64×64 matrix into the zero accumulator. -/
def mm (l : FVec Ideal S10000x64 .bf16) (w : FVec Ideal S64x64 .bf16) : FVec Ideal S10000x64 .f32 :=
  matmul dot_S10000x64_S64x64_S10000x64_1_0_0_1_n_n none l w (constant S10000x64 .f32 0x00000000#32)

/-- Its entry `(p, c)` is the sum over `k` of the products of row `p` with column `c`. -/
theorem mm_apply (l : FVec Ideal S10000x64 .bf16) (w : FVec Ideal S64x64 .bf16) (p : Fin 10000) (c : Fin 64) :
    mm l w (ix2 p c) = ∑ k : Fin 64, l (ix2 p k) * w (ix2 k c) :=
  Cert.PlainDot.matmul_zero_apply 10000 64 64 none l w (ix2 p c)

/-- The bias row over the block's rows. -/
def bias (b : FVec Ideal S1x64 .f32) : FVec Ideal S10000x64 .f32 :=
  broadcastTo S10000x64 (shapeCast S1x64 (shapeCast S1x64 b shapeCasts_S1x64_S1x64) shapeCasts_S1x64_S1x64)
    broadcasts_S1x64_S10000x64

/-- Every row of it is the bias row. -/
theorem bias_apply (b : FVec Ideal S1x64 .f32) (p : Fin 10000) (c : Fin 64) : bias b (ix2 p c) = b (ix2 (0 : Fin 1) c) := by
  unfold bias
  rw [shapeCast_self, shapeCast_self]
  exact broadcastTo_1b_ab_apply b broadcasts_S1x64_S10000x64 p c

/-- The clamped pre-activation block. -/
def preact (X A : FVec Ideal S10000x64 .f32) (W : FVec Ideal S64x128 .f32) (b : FVec Ideal S1x64 .f32) :
    FVec Ideal S10000x64 .f32 :=
  maximumf
    (addf
      (addf (mm (truncf .bf16 X bitsLt_bf16_f32) (wLo W))
        (mm (truncf .bf16 (shapeCast S10000x64 A shapeCasts_S10000x64_S10000x64) bitsLt_bf16_f32) (wHi W)))
      (bias b))
    (broadcast S10000x64 (Scalar.ofBits .f32 0x00000000#32))

/-- Its entry `(p, c)` is the clamped pre-activation of row `p` at column `c`. -/
theorem preact_apply (X A : FVec Ideal S10000x64 .f32) (W : FVec Ideal S64x128 .f32) (b : FVec Ideal S1x64 .f32)
    (p : Fin 10000) (c : Fin 64) :
    preact X A W b (ix2 p c)
      = Cert.Spec.act (fun k => X (ix2 p k)) (fun k => A (ix2 p k)) W (fun c => b (ix2 (0 : Fin 1) c)) c := by
  unfold preact
  rw [shapeCast_self]
  show max ((mm (truncf .bf16 X bitsLt_bf16_f32) (wLo W) (ix2 p c)
      + mm (truncf .bf16 A bitsLt_bf16_f32) (wHi W) (ix2 p c)) + bias b (ix2 p c)) (Ideal.ofBits .f32 0x00000000#32) = _
  rw [mm_apply, mm_apply, bias_apply]
  unfold Cert.Spec.act
  have e1 : (∑ k : Fin 64, (truncf .bf16 X bitsLt_bf16_f32 : FVec Ideal S10000x64 .bf16) (ix2 p k) * wLo W (ix2 k c))
      = ∑ k : Fin 64, X (ix2 p k) * W (ix2 c (Cert.Spec.lo k)) :=
    Finset.sum_congr rfl fun k _ => congrArg (fun t => X (ix2 p k) * t) (wLo_apply W k c)
  have e2 : (∑ k : Fin 64, (truncf .bf16 A bitsLt_bf16_f32 : FVec Ideal S10000x64 .bf16) (ix2 p k) * wHi W (ix2 k c))
      = ∑ k : Fin 64, A (ix2 p k) * W (ix2 c (Cert.Spec.hi k)) :=
    Finset.sum_congr rfl fun k _ => congrArg (fun t => A (ix2 p k) * t) (wHi_apply W k c)
  rw [e1, e2]

/-- The row means of a block, kept as a column. -/
def colMean (h : FVec Ideal S10000x64 .f32) : FVec Ideal S10000x1 .f32 :=
  divf
    (shapeCast S10000x1
      (multiReduction .add [1] S10000 h 0x00000000#32 reduces_S10000x64_S10000 (.inl rfl) rfl)
      shapeCasts_S10000_S10000x1)
    (broadcast S10000x1 (Scalar.ofBits .f32 0x42800000#32))

/-- Its entry at row `p` is the mean of row `p`. -/
theorem colMean_apply (h : FVec Ideal S10000x64 .f32) (p : Fin 10000) :
    colMean h (ix2 p (0 : Fin 1)) = Cert.Spec.mean (fun c => h (ix2 p c)) := by
  unfold colMean Cert.Spec.mean
  exact congrArg (fun s => Ideal.div s (Ideal.ofBits .f32 0x42800000#32))
    ((Cert.Keepdims.shapeCast_a_a1_apply _ shapeCasts_S10000_S10000x1 p 0).trans
      (Cert.Keepdims.sum_axis1_apply h 0x00000000#32 reduces_S10000x64_S10000 (.inl rfl) rfl p))

/-- A block with each row centred at its mean. -/
def cenV (h : FVec Ideal S10000x64 .f32) : FVec Ideal S10000x64 .f32 :=
  subf h (broadcastTo S10000x64 (colMean h) broadcasts_S10000x1_S10000x64)

/-- Its entry `(p, c)` is row `p` centred, at column `c`. -/
theorem cenV_apply (h : FVec Ideal S10000x64 .f32) (p : Fin 10000) (c : Fin 64) :
    cenV h (ix2 p c) = Cert.Spec.cen (fun c => h (ix2 p c)) c := by
  unfold cenV Cert.Spec.cen
  exact congrArg (fun m => h (ix2 p c) - m)
    ((Cert.Keepdims.broadcastTo_a1_ab_apply _ broadcasts_S10000x1_S10000x64 p c).trans (colMean_apply h p))

/-- A block with each row normalized. -/
def normV (h : FVec Ideal S10000x64 .f32) : FVec Ideal S10000x64 .f32 :=
  mulf (cenV h)
    (broadcastTo S10000x64
      (rsqrt (addf (colMean (mulf (cenV h) (cenV h))) (broadcast S10000x1 (Scalar.ofBits .f32 0x3727C5AC#32))))
      broadcasts_S10000x1_S10000x64)

/-- Its entry `(p, q)` is row `p` normalized, at column `q`. -/
theorem normV_apply (h : FVec Ideal S10000x64 .f32) (p : Fin 10000) (q : Fin 64) :
    normV h (ix2 p q) = Cert.Spec.normed (fun c => h (ix2 p c)) q := by
  unfold normV Cert.Spec.normed
  have e1 : (mulf (cenV h) (cenV h)) = fun j => cenV h j * cenV h j := rfl
  have e2 : colMean (mulf (cenV h) (cenV h)) (ix2 p (0 : Fin 1))
      = Cert.Spec.mean (fun d => Cert.Spec.cen (fun c => h (ix2 p c)) d * Cert.Spec.cen (fun c => h (ix2 p c)) d) :=
    (colMean_apply _ p).trans (congrArg Cert.Spec.mean (funext fun d =>
      congrArg₂ (· * ·) (cenV_apply h p d) (cenV_apply h p d)))
  have e3 : broadcastTo S10000x64
      (rsqrt (addf (colMean (mulf (cenV h) (cenV h))) (broadcast S10000x1 (Scalar.ofBits .f32 0x3727C5AC#32))))
      broadcasts_S10000x1_S10000x64 (ix2 p q)
      = Ideal.rsqrt (Cert.Spec.mean (fun d => Cert.Spec.cen (fun c => h (ix2 p c)) d * Cert.Spec.cen (fun c => h (ix2 p c)) d)
          + Ideal.ofBits .f32 0x3727C5AC#32) :=
    (Cert.Keepdims.broadcastTo_a1_ab_apply _ broadcasts_S10000x1_S10000x64 p q).trans
      (congrArg (fun m => Ideal.rsqrt (m + Ideal.ofBits .f32 0x3727C5AC#32)) e2)
  exact congrArg₂ (· * ·) (cenV_apply h p q) e3

/-- The body's arithmetic is the normalization of the pre-activation block. -/
theorem pay2_eq (P0 P1 : Vec Ideal S10000x64 .f32) (P2 : Vec Ideal S64x128 .f32) (P3 : Vec Ideal S1x64 .f32) :
    k0_pay2 (F := Ideal) P0 P1 P2 P3 = normV (preact P0 P1 P2 P3) := rfl

/-- The stored block at `(p, q)` is the layer's output row of node `p` at column `q`: the normalized
    pre-activation times the scale row plus the shift row. -/
theorem E6_apply (P0 P1 : Vec Ideal S10000x64 .f32) (P2 : Vec Ideal S64x128 .f32) (P3 P4 P5 : Vec Ideal S1x64 .f32)
    (p : Fin 10000) (q : Fin 64) :
    Cert.KernelIdeal.Value.E6 (F := Ideal) P0 P1 P2 P3 P4 P5 (ix2 p q)
      = Cert.Spec.rowOut (fun k => P0 (ix2 p k)) (fun k => P1 (ix2 p k)) P2 (fun c => P3 (ix2 (0 : Fin 1) c))
          (fun c => P4 (ix2 (0 : Fin 1) c)) (fun c => P5 (ix2 (0 : Fin 1) c)) q := by
  have i0 : Cert.KernelIdeal.Value.ix6_0 (ix2 p q) = ix2 p q :=
    funext fun a => Fin.ext (by match a with | ⟨0, _⟩ => rfl | ⟨1, _⟩ => rfl)
  have i1 : Cert.KernelIdeal.Value.ix6_1 (ix2 p q) = ix2 (0 : Fin 1) q :=
    funext fun a => Fin.ext (by match a with | ⟨0, _⟩ => rfl | ⟨1, _⟩ => rfl)
  have i2 : Cert.KernelIdeal.Value.ix6_2 (ix2 p q) = ix2 (0 : Fin 1) q :=
    funext fun a => Fin.ext (by match a with | ⟨0, _⟩ => rfl | ⟨1, _⟩ => rfl)
  show (k0_pay2 (F := Ideal) P0 P1 P2 P3) (Cert.KernelIdeal.Value.ix6_0 (ix2 p q)) * P4 (Cert.KernelIdeal.Value.ix6_1 (ix2 p q))
      + P5 (Cert.KernelIdeal.Value.ix6_2 (ix2 p q)) = _
  rw [i0, i1, i2, pay2_eq, normV_apply]
  unfold Cert.Spec.rowOut
  have e : (fun c => preact P0 P1 P2 P3 (ix2 p c))
      = Cert.Spec.act (fun k => P0 (ix2 p k)) (fun k => P1 (ix2 p k)) P2 (fun c => P3 (ix2 (0 : Fin 1) c)) :=
    funext fun c => preact_apply P0 P1 P2 P3 p c
  rw [e]

end Cert.KernelIdeal.Payload
end
-- ==== Proof.LibCat.lean ====
/-
  Reading a concatenation of two or of three buffers back from a run of host operations: the result holds the
  operation's function of each operand's contents at that operand's own reference, so that the operands' contents can
  in turn be read back. (The family of operand references is literal; under the operation's binder it is not, and the
  contents of "the k-th operand" could not be rewritten further.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- A two-operand concatenation's result, each operand's contents at its own reference. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- A three-operand concatenation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Contents carried to a typed reference's buffer type and back are the contents. -/
theorem ofBuf_toBuf {T : BufTy} (x : TRef sig T) (v : T.Contents Val) : x.ofBuf (x.toBuf v) = v := by
  obtain ⟨r, h, h2, h3⟩ := x
  subst h
  rfl
/-- Contents carried from a typed reference's buffer type and back are the contents. -/
theorem toBuf_ofBuf {T : BufTy} (x : TRef sig T) (v : x.ref.ty.Contents Val) : x.toBuf (x.ofBuf v) = v := by
  obtain ⟨r, h, h2, h3⟩ := x
  subst h
  rfl

/-- Folding a list of host operations cut in two: first the head part, then the tail part from what it leaves. -/
theorem after_append (l1 l2 : List (HloOp τ sig Val)) (V : Valuation τ sig Val) :
    after (l1 ++ l2) V = after l2 (after l1 V) := by
  induction l1 generalizing V with
  | nil => rfl
  | cons op l ih => exact ih (op.result V)

/-- The same two facts in rewriting form. -/
theorem nary2_result {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) :=
  nary2_result' f hxs hy F
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  nary3_result' f hxs hy F

end Cert.Lib

/-- The results of a literal list of host operations by one simp pass, two- and three-operand concatenations included. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.nary2_result', Cert.Lib.nary3_result', Idealize.ShloMosaic.StableHlo.nary4_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- Goes on reading inside a concatenation's operands, one rewrite per operation (the one-pass form does not enter them). -/
macro "finish_results_rw" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | rw [Cert.Lib.nary2_result] | rw [Cert.Lib.nary3_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.RefRun.lean ====
/-
  The reference program's run, read back as the two pure terms of its arguments.

  The program is a straight line: the aggregation (the edge list's two rows, the wrapped source indices, the
  gather of the source rows, their sums into the destination rows, the edge counts clamped at one, the quotient),
  then the layer on the concatenation of the features and the aggregate against the transposed weight with its
  bias, the clamp at zero written as a called function, the row means, the row variances written as a called
  function (which itself calls the selection between the quotient and a fixed word), and the normalization with
  its scale and shift. A called function's operations are the same operations over the buffers that the call
  names, so the whole program is one list of operations; folding their results over any starting contents leaves
  at the result buffer the composition of the operations' functions, which is `RefTerm.tailOf` of the arguments
  and of `RefTerm.aggOf` of the first two, and leaves the six argument buffers as they were.
-/
import proofs.«180811_j2954937499913_1_alg».proof.Proof.RefTerm
import proofs.«180811_j2954937499913_1_alg».proof.Proof.LibCat
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 82 operations in order, each called function's operations in place of its call: the
    clamp's three over the buffers of its call, the variance's twenty over the buffers of its call, and the
    selection's three over the buffers of the call the variance makes. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v3 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v3 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v3 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v1 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v1 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x64 ![0, 1] bcast_S100000x1_S100000x64_0_1 : (⟨S100000x1, .f32⟩ : BufTy).Contents (Elt F) → (⟨S100000x64, .f32⟩ : BufTy).Contents (Elt F)),
    binary main_v13 main_v21 main_v22 (Host.divf : (⟨S100000x64, .f32⟩ : BufTy).Contents (Elt F) → (⟨S100000x64, .f32⟩ : BufTy).Contents (Elt F) → (⟨S100000x64, .f32⟩ : BufTy).Contents (Elt F)),
    binary main_arg0 main_v22 main_v23 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg2 main_v24 ((transpose S128x64 [1, 0] · transposes_S64x128_S128x64_1_0) : (⟨S64x128, .f32⟩ : BufTy).Contents (Elt F) → (⟨S128x64, .f32⟩ : BufTy).Contents (Elt F)),
    binary main_v23 main_v24 main_v25 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v26 (broadcastInDim S1x64 ![1] bcast_S64_S1x64_1 : (⟨S64, .f32⟩ : BufTy).Contents (Elt F) → (⟨S1x64, .f32⟩ : BufTy).Contents (Elt F)),
    unary main_v26 main_v27 (broadcastInDim S100000x64 ![0, 1] bcast_S1x64_S100000x64_0_1 : (⟨S1x64, .f32⟩ : BufTy).Contents (Elt F) → (⟨S100000x64, .f32⟩ : BufTy).Contents (Elt F)),
    binary main_v25 main_v27 main_v28 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (.of main_v28 : TRef sig ⟨S100000x64, .f32⟩) main_call0.v0 main_call0.v1 maximumf,
    nullary main_cst_4 (constant S_ .f32 0x00000000#32),
    binary main_v29 main_cst_4 main_v30 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v30 main_v31 (broadcastInDim S100000x1 ![0] bcast_S100000_S100000x1_0 : (⟨S100000, .f32⟩ : BufTy).Contents (Elt F) → (⟨S100000x1, .f32⟩ : BufTy).Contents (Elt F)),
    nullary main_cst_5 (constant S_ .f32 0x42800000#32),
    unary main_cst_5 main_v32 (broadcastInDim S100000x1 ![] bcast_S_S100000x1 : (⟨S_, .f32⟩ : BufTy).Contents (Elt F) → (⟨S100000x1, .f32⟩ : BufTy).Contents (Elt F)),
    binary main_v31 main_v32 main_v33 (Host.divf : (⟨S100000x1, .f32⟩ : BufTy).Contents (Elt F) → (⟨S100000x1, .f32⟩ : BufTy).Contents (Elt F) → (⟨S100000x1, .f32⟩ : BufTy).Contents (Elt F)),
    nullary main_c_6 (constantI S_ 32 0#32),
    TRef.nullary main_call1.cst (constant S_ .f32 0x00000000#32),
    TRef.binary (.of main_v29 : TRef sig ⟨S100000x64, .f32⟩) main_call1.cst main_call1.v0 (fun x v => Host.reduceAdd x v reducesTo_S100000x64_S100000_d1 h_S_),
    TRef.unary main_call1.v0 main_call1.v1 (broadcastInDim S100000x1 ![0] bcast_S100000_S100000x1_0),
    TRef.nullary main_call1.cst_0 (constant S_ .f32 0x42800000#32),
    TRef.unary main_call1.cst_0 main_call1.v2 (broadcastInDim S100000x1 ![] bcast_S_S100000x1),
    TRef.binary main_call1.v1 main_call1.v2 main_call1.v3 Host.divf,
    TRef.unary main_call1.v3 main_call1.v4 (broadcastInDim S100000x64 ![0, 1] bcast_S100000x1_S100000x64_0_1),
    TRef.binary (.of main_v29 : TRef sig ⟨S100000x64, .f32⟩) main_call1.v4 main_call1.v5 subf,
    TRef.binary main_call1.v5 main_call1.v5 main_call1.v6 mulf,
    TRef.unary (.of main_c_6 : TRef sig ⟨S_, .i32⟩) main_call1.v7 (sitofp .f32),
    TRef.nullary main_call1.cst_1 (constant S_ .f32 0x42800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x64_S100000_d1 h_S_),
    TRef.unary main_call1.v9 main_call1.v10 (broadcastInDim S100000x1 ![0] bcast_S100000_S100000x1_0),
    TRef.unary main_call1.v8 main_call1.v11 (broadcastInDim S100000x1 ![] bcast_S_S100000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S100000x1 ![] bcast_S_S100000x1),
    TRef.ternary main_call1.v13 main_call1.v12 main_call1.call0.v1 main_call1.call0.v2 (fun p a b => select (broadcastInDim S100000x1 ![] bcast_S_S100000x1 p) a b),
    unary main_v33 main_v35 (broadcastInDim S100000x64 ![0, 1] bcast_S100000x1_S100000x64_0_1 : (⟨S100000x1, .f32⟩ : BufTy).Contents (Elt F) → (⟨S100000x64, .f32⟩ : BufTy).Contents (Elt F)),
    binary main_v29 main_v35 main_v36 (subf : (⟨S100000x64, .f32⟩ : BufTy).Contents (Elt F) → (⟨S100000x64, .f32⟩ : BufTy).Contents (Elt F) → (⟨S100000x64, .f32⟩ : BufTy).Contents (Elt F)),
    nullary main_cst_7 (constant S_ .f32 0x3727C5AC#32),
    unary main_cst_7 main_v37 (broadcastInDim S100000x1 ![] bcast_S_S100000x1 : (⟨S_, .f32⟩ : BufTy).Contents (Elt F) → (⟨S100000x1, .f32⟩ : BufTy).Contents (Elt F)),
    binary main_v34 main_v37 main_v38 (addf : (⟨S100000x1, .f32⟩ : BufTy).Contents (Elt F) → (⟨S100000x1, .f32⟩ : BufTy).Contents (Elt F) → (⟨S100000x1, .f32⟩ : BufTy).Contents (Elt F)),
    unary main_v38 main_v39 (Host.rsqrt : (⟨S100000x1, .f32⟩ : BufTy).Contents (Elt F) → (⟨S100000x1, .f32⟩ : BufTy).Contents (Elt F)),
    unary main_v39 main_v40 (broadcastInDim S100000x64 ![0, 1] bcast_S100000x1_S100000x64_0_1 : (⟨S100000x1, .f32⟩ : BufTy).Contents (Elt F) → (⟨S100000x64, .f32⟩ : BufTy).Contents (Elt F)),
    binary main_v36 main_v40 main_v41 (mulf : (⟨S100000x64, .f32⟩ : BufTy).Contents (Elt F) → (⟨S100000x64, .f32⟩ : BufTy).Contents (Elt F) → (⟨S100000x64, .f32⟩ : BufTy).Contents (Elt F)),
    unary main_arg4 main_v42 (broadcastInDim S1x64 ![1] bcast_S64_S1x64_1 : (⟨S64, .f32⟩ : BufTy).Contents (Elt F) → (⟨S1x64, .f32⟩ : BufTy).Contents (Elt F)),
    unary main_v42 main_v43 (broadcastInDim S100000x64 ![0, 1] bcast_S1x64_S100000x64_0_1 : (⟨S1x64, .f32⟩ : BufTy).Contents (Elt F) → (⟨S100000x64, .f32⟩ : BufTy).Contents (Elt F)),
    binary main_v41 main_v43 main_v44 (mulf : (⟨S100000x64, .f32⟩ : BufTy).Contents (Elt F) → (⟨S100000x64, .f32⟩ : BufTy).Contents (Elt F) → (⟨S100000x64, .f32⟩ : BufTy).Contents (Elt F)),
    unary main_arg5 main_v45 (broadcastInDim S1x64 ![1] bcast_S64_S1x64_1 : (⟨S64, .f32⟩ : BufTy).Contents (Elt F) → (⟨S1x64, .f32⟩ : BufTy).Contents (Elt F)),
    unary main_v45 main_v46 (broadcastInDim S100000x64 ![0, 1] bcast_S1x64_S100000x64_0_1 : (⟨S1x64, .f32⟩ : BufTy).Contents (Elt F) → (⟨S100000x64, .f32⟩ : BufTy).Contents (Elt F)),
    binary main_v44 main_v46 main_v47 (addf : (⟨S100000x64, .f32⟩ : BufTy).Contents (Elt F) → (⟨S100000x64, .f32⟩ : BufTy).Contents (Elt F) → (⟨S100000x64, .f32⟩ : BufTy).Contents (Elt F)) ]

set_option maxRecDepth 16384 in
/-- The program is that straight line: with each called function's definition opened at its call and the call's
    record at its fields, sequencing computes both sides to the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes buffers of the TensorCore only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., binary_bufs_sub ..,
    unary_bufs_sub .., binary_bufs_sub .., unary_bufs_sub .., unary_bufs_sub .., binary_bufs_sub .., nullary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub ..⟩

attribute [local irreducible] Host.gather Host.scatterAdd Host.reduceAdd in
set_option maxRecDepth 16384 in
/-- The fold at the result buffer, from any starting contents `V`: each operation's result is its function of
    the contents of the buffers it reads, so the fold is the composition of the functions along the program's
    data flow; the contents carried to and from a called function's typed buffers are carried back unchanged;
    what is left is the reference's two terms spelt out, operation for operation. The gather, the two sums into
    destination rows and the row sums are kept closed meanwhile: the equation never looks inside them. -/
theorem out_eq (V : Valuation τ sig (Elt F)) :
    after ops V (main_v47 : DevRef τ sig)
      = RefTerm.tailOf (V (main_arg0 : DevRef τ sig)) (RefTerm.aggOf (V (main_arg0 : DevRef τ sig)) (V (main_arg1 : DevRef τ sig)))
          (V (main_arg2 : DevRef τ sig)) (V (main_arg3 : DevRef τ sig)) (V (main_arg4 : DevRef τ sig)) (V (main_arg5 : DevRef τ sig)) := by
  after_results_simp
  simp only [Cert.Lib.ofBuf_toBuf]
  simp only [TRef.ofBuf, TRef.toBuf, cast_cast, cast_eq]
  unfold RefTerm.tailOf RefTerm.lnOf RefTerm.varOf RefTerm.cntOf RefTerm.meanOf RefTerm.actOf RefTerm.aggOf RefTerm.dstOf RefTerm.srcOf
  rfl

/-! No operation writes an argument's buffer: the fold leaves each of the six as it was. -/

theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp
theorem arg3_eq (V : Valuation τ sig (Elt F)) :
    after ops V (main_arg3 : DevRef τ sig) = V (main_arg3 : DevRef τ sig) := by
  after_results_simp
theorem arg4_eq (V : Valuation τ sig (Elt F)) :
    after ops V (main_arg4 : DevRef τ sig) = V (main_arg4 : DevRef τ sig) := by
  after_results_simp
theorem arg5_eq (V : Valuation τ sig (Elt F)) :
    after ops V (main_arg5 : DevRef τ sig) = V (main_arg5 : DevRef τ sig) := by
  after_results_simp

/-- On every device, for any float values, from any memory with zero counters: every weakly fair execution of
    the program terminates with the result buffer at `RefTerm.tailOf` of the arguments' launch contents and of
    their aggregate `RefTerm.aggOf`, and with the six arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
        = RefTerm.tailOf (m ((c.tc : Thread nD τ).loc main_arg0))
            (RefTerm.aggOf (m ((c.tc : Thread nD τ).loc main_arg0)) (m ((c.tc : Thread nD τ).loc main_arg1)))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v47).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_seq scopedRefs_eq scopedSems_eq defs main (fun _ => ops) main_eq (fun _ => ops_sub) m ρ)

end Cert.ReferenceIdeal.RefRun

end
-- ==== Proof.RefValue.lean ====
/-
  The reference's tail, read at an index of its result.

  After the aggregation the reference multiplies the row `[x r, a r]` (the node's features followed by its
  aggregate, 128 entries) against the transposed weight, adds the bias and clamps at zero; it then normalizes each
  row of 64 entries: the row less its mean, times the reciprocal square root of the mean of the centred squares plus
  a small constant, times `g`, plus `β`, column by column. Read at `(r, q)` on the extended reals this is
  `Spec.rowOut` of row `r` of `x` and of `a`.

  Three things are used and nothing else. A sum over the 128 concatenated columns is the sum over the first 64
  (where the concatenation reads `x`) plus the sum over the last 64 (where it reads `a`): commutativity and
  associativity of the sum only, with no finiteness assumed. The reduction's initial word denotes zero, so a row
  sum is the plain sum of the row. The variance's divisor is sixty-four less the integer zero, that is sixty-four,
  which is above zero, so the selection between the quotient and the fixed word always takes the quotient, and the
  fixed word is never read.
-/
import proofs.«180811_j2954937499913_1_alg».proof.Proof.Spec
import proofs.«180811_j2954937499913_1_alg».proof.Proof.RefTerm
import proofs.«180811_j2954937499913_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## The divisor -/

/-- The word `0x42800000` denotes the real sixty-four. -/
theorem word64 : Ideal.ofBits .f32 0x42800000#32 = ((64 : ℝ) : EReal) := by
  simp [Ideal.ofBits, Ideal.ieee, -EReal.coe_mul]; norm_num

/-- The variance's divisor: sixty-four less the integer zero read as a float, which is sixty-four. -/
theorem cnt_apply (j : S_.Idx) : RefTerm.cntOf (F := Ideal) j = Ideal.ofBits .f32 0x42800000#32 := by
  show Ideal.ofBits .f32 0x42800000#32 - (((0#32 : BitVec 32).toInt : ℝ) : EReal) = _
  simp

/-- The divisor is above zero: the comparison is the bit one. -/
theorem cnt_pos (j : S_.Idx) :
    cmpf .ogt (RefTerm.cntOf (F := Ideal)) (constant (F := Ideal) S_ .f32 0x00000000#32) j = 1#1 := by
  show Ideal.cmp .ogt (RefTerm.cntOf (F := Ideal) j) (Ideal.ofBits .f32 0x00000000#32) = 1#1
  rw [cnt_apply, word64, Ideal.ofBits_zero_f32]
  simp [Ideal.cmp]

/-! ## The broadcasts, at an index -/

section Bcast
variable {α : Type}

/-- A scalar broadcast over the `100000 × 64` array reads the scalar everywhere. -/
theorem bc0_64 (v : S_.Idx → α) (r : Fin 100000) (c : Fin 64) :
    broadcastInDim S100000x64 ![] bcast_S_S100000x64 v (ix2 r c) = v ix0 :=
  broadcastInDim_apply _ _ v _ _ fun a => a.elim0

/-- A scalar broadcast over a column of 100000 entries reads the scalar everywhere. -/
theorem bc0_col (v : S_.Idx → α) (r : Fin 100000) (u : Fin 1) :
    broadcastInDim S100000x1 ![] bcast_S_S100000x1 v (ix2 r u) = v ix0 :=
  broadcastInDim_apply _ _ v _ _ fun a => a.elim0

/-- A vector of 100000 entries kept as a column reads, at row `r`, its entry `r`. -/
theorem bc_col (v : S100000.Idx → α) (r : Fin 100000) (u : Fin 1) :
    broadcastInDim S100000x1 ![0] bcast_S100000_S100000x1_0 v (ix2 r u) = v (ix1 r) :=
  broadcastInDim_apply _ _ v _ _ fun a => match a with | ⟨0, _⟩ => rfl

/-- A column broadcast over 64 columns reads, at `(r, c)`, the column's entry of row `r`. -/
theorem bc_col64 (v : S100000x1.Idx → α) (r : Fin 100000) (c : Fin 64) :
    broadcastInDim S100000x64 ![0, 1] bcast_S100000x1_S100000x64_0_1 v (ix2 r c) = v (ix2 r (0 : Fin 1)) :=
  broadcastInDim_apply _ _ v _ _ fun a => match a with | ⟨0, _⟩ => rfl | ⟨1, _⟩ => rfl

/-- A vector of 64 entries laid as a row and broadcast over 100000 rows reads, at `(r, c)`, its entry `c`. -/
theorem bc_row (b : S64.Idx → α) (r : Fin 100000) (c : Fin 64) :
    broadcastInDim S100000x64 ![0, 1] bcast_S1x64_S100000x64_0_1 (broadcastInDim S1x64 ![1] bcast_S64_S1x64_1 b) (ix2 r c)
      = b (ix1 c) :=
  (broadcastInDim_apply _ _ _ (ix2 r c) (ix2 (0 : Fin 1) c) fun a => match a with | ⟨0, _⟩ => rfl | ⟨1, _⟩ => rfl).trans
    (broadcastInDim_apply _ _ b (ix2 (0 : Fin 1) c) (ix1 c) fun a => match a with | ⟨0, _⟩ => rfl)

end Bcast

/-! ## A row sum -/

/-- The sum along the columns from the zero word, at row `r`: the plain sum of that row's 64 entries. -/
theorem rowSum_apply (h : FVec Ideal S100000x64 .f32) (r : Fin 100000) :
    Host.reduceAdd (F := Ideal) h (constant (F := Ideal) S_ .f32 0x00000000#32) reducesTo_S100000x64_S100000_d1 h_S_ (ix1 r)
      = ∑ c : Fin 64, h (ix2 r c) := by
  have hR : S100000x64.Reduces [1] S100000 := by decide
  refine (Ideal.hostReduceAdd_single reducesTo_S100000x64_S100000_d1 hR h _ (ix1 r)).trans ?_
  show Ideal.ofBits .f32 0x00000000#32 + _ = _
  rw [Ideal.ofBits_zero_f32, zero_add]
  refine Finset.sum_congr rfl fun k _ => congrArg h (funext fun ax => Fin.ext ?_)
  match ax with
  | ⟨0, _⟩ => rfl
  | ⟨1, _⟩ => rfl

/-! ## The concatenated row and the transposed weight -/

section Cat
variable {α : Type}

/-- Column `k` of the first half of the concatenation is column `k` of `x`. -/
theorem cat_lo (x a : S100000x64.Idx → α) (r : Fin 100000) (k : Fin 64) :
    concatenate S100000x128 1 [⟨S100000x64, x⟩, ⟨S100000x64, a⟩] concatenates_S100000x64_S100000x64_S100000x128_d1
        (ix2 r (Cert.Spec.lo k)) = x (ix2 r k) :=
  concatenate_pair_apply_left (t := S100000x128) (s₁ := S100000x64) (s₂ := S100000x64) 1 x a
    concatenates_S100000x64_S100000x64_S100000x128_d1 (ix2 r (Cert.Spec.lo k)) rfl (ix2 r k)
    fun b => match b with | ⟨0, _⟩ => rfl | ⟨1, _⟩ => rfl

/-- Column `64 + k` of the concatenation is column `k` of `a`. -/
theorem cat_hi (x a : S100000x64.Idx → α) (r : Fin 100000) (k : Fin 64) :
    concatenate S100000x128 1 [⟨S100000x64, x⟩, ⟨S100000x64, a⟩] concatenates_S100000x64_S100000x64_S100000x128_d1
        (ix2 r (Cert.Spec.hi k)) = a (ix2 r k) :=
  concatenate_pair_apply_right (t := S100000x128) (s₁ := S100000x64) (s₂ := S100000x64) 1 x a
    concatenates_S100000x64_S100000x64_S100000x128_d1 (ix2 r (Cert.Spec.hi k)) rfl rfl (ix2 r k)
    (fun b => match b with | ⟨0, _⟩ => fun _ => rfl | ⟨1, _⟩ => fun hne => absurd rfl hne)
    (Nat.add_comm k.val 64)

/-- The transposed weight at `(k, c)` is the weight at `(c, k)`. -/
theorem wT_apply (W : S64x128.Idx → α) (k : Fin 128) (c : Fin 64) :
    transpose S128x64 [1, 0] W transposes_S64x128_S128x64_1_0 (ix2 k c) = W (ix2 c k) :=
  transpose_ix2_apply W transposes_S64x128_S128x64_1_0 k c

end Cat

/-! ## The clamped linear layer -/

/-- At `(r, c)`: the product's sum over the 128 concatenated columns splits into the sum over `x`'s row against
    the weight's first 64 columns and the sum over `a`'s row against its last 64; the bias is added and the result
    clamped at the zero word. -/
theorem actOf_apply (x a : FVec Ideal S100000x64 .f32) (W : FVec Ideal S64x128 .f32) (b : FVec Ideal S64 .f32)
    (r : Fin 100000) (c : Fin 64) :
    RefTerm.actOf (F := Ideal) x a W b (ix2 r c)
      = Cert.Spec.act (fun k => x (ix2 r k)) (fun k => a (ix2 r k)) W (fun c => b (ix1 c)) c := by
  unfold RefTerm.actOf Cert.Spec.act
  rw [maximumf_apply, addf_apply, bc_row, bc0_64, constant_apply]
  refine congrArg (fun t => max (t + b (ix1 c)) (Ideal.ofBits .f32 0x00000000#32)) ?_
  refine (Cert.PlainDot.dotGeneral_apply 100000 128 64 none .single _ _ (ix2 r c)).trans ?_
  refine (Cert.Spec.sum_split _).trans ?_
  refine congrArg₂ (· + ·) (Finset.sum_congr rfl fun k _ => ?_) (Finset.sum_congr rfl fun k _ => ?_)
  · exact congrArg₂ (· * ·) (cat_lo x a r k) (wT_apply W (Cert.Spec.lo k) c)
  · exact congrArg₂ (· * ·) (cat_hi x a r k) (wT_apply W (Cert.Spec.hi k) c)

/-! ## The normalization of a row -/

/-- The host's quotient and reciprocal square root act entry by entry. -/
theorem hdiv_apply {s : Shape} (x y : FVec Ideal s .f32) (i : s.Idx) :
    Host.divf (F := Ideal) x y i = Ideal.div (x i) (y i) := rfl

theorem hrsqrt_apply {s : Shape} (x : FVec Ideal s .f32) (i : s.Idx) :
    Host.rsqrt (F := Ideal) x i = Ideal.rsqrt (x i) := rfl

/-- The mean column at row `r`: the row's sum over sixty-four. -/
theorem meanOf_apply (h : FVec Ideal S100000x64 .f32) (r : Fin 100000) (u : Fin 1) :
    RefTerm.meanOf (F := Ideal) h (ix2 r u) = Cert.Spec.mean (fun c => h (ix2 r c)) := by
  unfold RefTerm.meanOf Cert.Spec.mean
  rw [hdiv_apply, bc_col, bc0_col, rowSum_apply, constant_apply]

/-- The variance column at row `r`: the divisor being above zero, the selection takes the quotient, the mean of
    the row's centred squares. -/
theorem varOf_apply (h : FVec Ideal S100000x64 .f32) (r : Fin 100000) (u : Fin 1) :
    RefTerm.varOf (F := Ideal) h (ix2 r u)
      = Cert.Spec.mean (fun d => Cert.Spec.cen (fun c => h (ix2 r c)) d * Cert.Spec.cen (fun c => h (ix2 r c)) d) := by
  unfold RefTerm.varOf
  rw [select_apply, bc0_col, cnt_pos, select_one, hdiv_apply, bc_col, bc0_col, cnt_apply, rowSum_apply]
  unfold Cert.Spec.mean
  refine congrArg (fun t => Ideal.div t (Ideal.ofBits .f32 0x42800000#32)) (Finset.sum_congr rfl fun c _ => ?_)
  rw [mulf_apply, subf_apply, bc_col64, meanOf_apply]
  rfl

/-- The normalized, scaled and shifted array at `(r, q)`, for any array `h`: a function of row `r` of `h` only. -/
theorem lnOf_apply (h : FVec Ideal S100000x64 .f32) (g β : FVec Ideal S64 .f32) (r : Fin 100000) (q : Fin 64) :
    RefTerm.lnOf (F := Ideal) h g β (ix2 r q)
      = Cert.Spec.normed (fun c => h (ix2 r c)) q * g (ix1 q) + β (ix1 q) := by
  unfold RefTerm.lnOf
  rw [addf_apply, mulf_apply, mulf_apply, subf_apply, bc_col64, bc_col64, bc_row, bc_row, hrsqrt_apply, addf_apply,
    bc0_col, constant_apply, meanOf_apply, varOf_apply]
  rfl

/-! ## The tail -/

/-- The reference's tail at `(r, q)` is the layer's output row of node `r` at column `q`. -/
theorem tailOf_apply (x a : FVec Ideal S100000x64 .f32) (W : FVec Ideal S64x128 .f32) (b g β : FVec Ideal S64 .f32)
    (r : Fin 100000) (q : Fin 64) :
    RefTerm.tailOf (F := Ideal) x a W b g β (ix2 r q)
      = Cert.Spec.rowOut (fun k => x (ix2 r k)) (fun k => a (ix2 r k)) W (fun c => b (ix1 c)) (fun c => g (ix1 c))
          (fun c => β (ix1 c)) q := by
  have e : (fun c => RefTerm.actOf (F := Ideal) x a W b (ix2 r c))
      = Cert.Spec.act (fun k => x (ix2 r k)) (fun k => a (ix2 r k)) W (fun c => b (ix1 c)) :=
    funext fun c => actOf_apply x a W b r c
  unfold RefTerm.tailOf Cert.Spec.rowOut
  refine (lnOf_apply (RefTerm.actOf (F := Ideal) x a W b) g β r q).trans ?_
  rw [e]

end Cert.ReferenceIdeal.RefValue

end
-- ==== Proof.lean ====
/-
  A graph layer — mean aggregation of neighbour features, a linear map of the node's own features beside the
  aggregate, a bias, a clamp at zero, and a normalization of each row — computed two ways, equal on the extended reals.

  Both programs begin with the same host lines: the rows of `x` gathered at the edges' sources, summed into the edges'
  destinations, divided by the destinations' edge counts (at least one). The kernel then takes ten row blocks of
  `x` and of the aggregate through one body: two products of a row block against the transposed halves of the weight,
  added; the bias; the clamp; each row centred at its mean, scaled by the reciprocal root of the mean of its centred
  squares plus a small constant, multiplied by `gamma` and shifted by `beta`. The reference concatenates `x` and the
  aggregate, multiplies once by the transposed weight, and normalizes with a variance whose divisor is written
  `64 - 0` under a positivity test. Row by row both are one function (`Cert.Spec.rowOut`):
  the sum over the 128 concatenated columns is the sum over the first 64 plus the sum over the last 64 (commutativity
  and associativity of addition only, so the inputs' finiteness is never used), `64 - 0` is `64`, and the test holds.

  The kernel's frame at both instances is the generated one; the reference has no kernel, its frame is its run with the
  result dropped. The idealization rewrote nothing, so it is preserved trivially.
-/
import proofs.«180811_j2954937499913_1_alg».proof.Defs
import proofs.«180811_j2954937499913_1_alg».proof.Proof.Gen.Kernel
import proofs.«180811_j2954937499913_1_alg».proof.Proof.Gen.Kernel.Skeleton
import proofs.«180811_j2954937499913_1_alg».proof.Proof.Gen.Kernel.Launch
import proofs.«180811_j2954937499913_1_alg».proof.Proof.Gen.Kernel.Points
import proofs.«180811_j2954937499913_1_alg».proof.Proof.Gen.Kernel.Frame
import proofs.«180811_j2954937499913_1_alg».proof.Proof.Gen.KernelIdeal
import proofs.«180811_j2954937499913_1_alg».proof.Proof.Gen.KernelIdeal.Skeleton
import proofs.«180811_j2954937499913_1_alg».proof.Proof.Gen.KernelIdeal.Launch
import proofs.«180811_j2954937499913_1_alg».proof.Proof.Gen.KernelIdeal.Points
import proofs.«180811_j2954937499913_1_alg».proof.Proof.Gen.KernelIdeal.Frame
import proofs.«180811_j2954937499913_1_alg».proof.Proof.Gen.KernelIdeal.Value
import proofs.«180811_j2954937499913_1_alg».proof.Proof.Gen.ReferenceIdeal
import proofs.«180811_j2954937499913_1_alg».proof.Proof.Gen.Pre_finite_inputs
import proofs.«180811_j2954937499913_1_alg».proof.Proof.KernelRun
import proofs.«180811_j2954937499913_1_alg».proof.Proof.Payload
import proofs.«180811_j2954937499913_1_alg».proof.Proof.RefRun
import proofs.«180811_j2954937499913_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's operations after the aggregation are the layer on whole arrays: at `(r, q)` the row function of
    row `r`. -/
theorem ref_whole (x a : FVec Ideal Cert.ReferenceIdeal.S100000x64 .f32) (W : FVec Ideal Cert.ReferenceIdeal.S64x128 .f32)
    (b g β : FVec Ideal Cert.ReferenceIdeal.S64 .f32) :
    Cert.ReferenceIdeal.RefTerm.tailOf (F := Ideal) x a W b g β = Cert.Spec.whole x a W b g β := by
  funext i
  obtain ⟨r, q, rfl⟩ : ∃ (r : Fin 100000) (q : Fin 64), i = ix2 r q := ⟨i 0, i 1, eq_ix2 i⟩
  exact (Cert.ReferenceIdeal.RefValue.tailOf_apply x a W b g β r q).trans (Cert.Spec.whole_ix2 x a W b g β r q).symm

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both programs end with the result array at the layer on whole arrays of
    the arguments and of their common aggregation. -/
theorem algebraic : Cert.algebraic_KernelIdeal_ReferenceIdeal := by
  intro m ρ m' ρ' _ hagree
  refine ⟨_, Cert.KernelIdeal.Whole.run m ρ Cert.KernelIdeal.Payload.E6_apply, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]
  exact ref_whole _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
